-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x2 : Shape := ⟨3, ![8, 512, 2]⟩
abbrev S8x512x1 : Shape := ⟨3, ![8, 512, 1]⟩
abbrev S8x4096x2 : Shape := ⟨3, ![8, 4096, 2]⟩
abbrev S2 : Shape := ⟨1, ![2]⟩
abbrev S64x2 : Shape := ⟨2, ![64, 2]⟩
abbrev S64 : Shape := ⟨1, ![64]⟩
abbrev S_ : Shape := ⟨0, ![]⟩

class Facts : Prop where
  bcast_S_S8x512x2 : S_.BroadcastsInDim S8x512x2 (![] : Fin 0 → Fin S8x512x2.rank)
  reducesTo_S8x512x2_S_d0_1_2 : S8x512x2.ReducesTo [0, 1, 2] S_
  h_S_ : 0 < S_.numel
  bcast_S_S8x512x1 : S_.BroadcastsInDim S8x512x1 (![] : Fin 0 → Fin S8x512x1.rank)
  reducesTo_S8x512x1_S_d0_1_2 : S8x512x1.ReducesTo [0, 1, 2] S_
  bcast_S_S8x4096x2 : S_.BroadcastsInDim S8x4096x2 (![] : Fin 0 → Fin S8x4096x2.rank)
  reducesTo_S8x4096x2_S_d0_1_2 : S8x4096x2.ReducesTo [0, 1, 2] S_
  bcast_S_S2 : S_.BroadcastsInDim S2 (![] : Fin 0 → Fin S2.rank)
  reducesTo_S2_S_d0 : S2.ReducesTo [0] S_
  bcast_S_S64x2 : S_.BroadcastsInDim S64x2 (![] : Fin 0 → Fin S64x2.rank)
  reducesTo_S64x2_S_d0_1 : S64x2.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x2 .f32) (main_arg5 : FVec F S64 .f32) (main_v13 : IVec S_ 1) (main_v16 : IVec S2 1) : IVec S_ 1 :=
  let main_c_5 : IVec S_ 1 := constantI S_ 1 1#1
  let main_v17 : IVec S_ 1 := (fun x v => Host.reduce IntOp.andi x v reducesTo_S2_S_d0 h_S_) main_v16 main_c_5
  let main_v18 : IVec S_ 1 := andi main_v13 main_v17
  let main_v19 : FVec F S64x2 .f32 := Host.absf main_arg4
  let main_cst_6 : FVec F S_ .f32 := constant S_ .f32 0x7F800000#32
  let main_v20 : FVec F S64x2 .f32 := broadcastInDim S64x2 ![] bcast_S_S64x2 main_cst_6
  let main_v21 : IVec S64x2 1 := cmpf .olt main_v19 main_v20
  let main_c_7 : IVec S_ 1 := constantI S_ 1 1#1
  let main_v22 : IVec S_ 1 := (fun x v => Host.reduce IntOp.andi x v reducesTo_S64x2_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S8x512x2 .f32) (main_arg1 : FVec F S8x512x1 .f32) (main_arg2 : FVec F S8x4096x2 .f32) (main_arg3 : FVec F S2 .f32) (main_arg4 : FVec F S64x2 .f32) (main_arg5 : FVec F S64 .f32) : IVec S_ 1 :=
  let main_v0 : FVec F S8x512x2 .f32 := Host.absf main_arg0
  let main_cst : FVec F S_ .f32 := constant S_ .f32 0x7F800000#32
  let main_v1 : FVec F S8x512x2 .f32 := broadcastInDim S8x512x2 ![] bcast_S_S8x512x2 main_cst
  let main_v2 : IVec S8x512x2 1 := cmpf .olt main_v0 main_v1
  let main_c : IVec S_ 1 := constantI S_ 1 1#1
  let main_v3 : IVec S_ 1 := (fun x v => Host.reduce IntOp.andi x v reducesTo_S8x512x2_S_d0_1_2 h_S_) main_v2 main_c
  let main_v4 : FVec F S8x512x1 .f32 := Host.absf main_arg1
  let main_cst_0 : FVec F S_ .f32 := constant S_ .f32 0x7F800000#32
  let main_v5 : FVec F S8x512x1 .f32 := broadcastInDim S8x512x1 ![] bcast_S_S8x512x1 main_cst_0
  let main_v6 : IVec S8x512x1 1 := cmpf .olt main_v4 main_v5
  let main_c_1 : IVec S_ 1 := constantI S_ 1 1#1
  let main_v7 : IVec S_ 1 := (fun x v => Host.reduce IntOp.andi x v reducesTo_S8x512x1_S_d0_1_2 h_S_) main_v6 main_c_1
  let main_v8 : IVec S_ 1 := andi main_v3 main_v7
  let main_v9 : FVec F S8x4096x2 .f32 := Host.absf main_arg2
  let main_cst_2 : FVec F S_ .f32 := constant S_ .f32 0x7F800000#32
  let main_v10 : FVec F S8x4096x2 .f32 := broadcastInDim S8x4096x2 ![] bcast_S_S8x4096x2 main_cst_2
  let main_v11 : IVec S8x4096x2 1 := cmpf .olt main_v9 main_v10
  let main_c_3 : IVec S_ 1 := constantI S_ 1 1#1
  let main_v12 : IVec S_ 1 := (fun x v => Host.reduce IntOp.andi x v reducesTo_S8x4096x2_S_d0_1_2 h_S_) main_v11 main_c_3
  let main_v13 : IVec S_ 1 := andi main_v8 main_v12
  let main_v14 : FVec F S2 .f32 := Host.absf main_arg3
  let main_cst_4 : FVec F S_ .f32 := constant S_ .f32 0x7F800000#32
  let main_v15 : FVec F S2 .f32 := broadcastInDim S2 ![] bcast_S_S2 main_cst_4
  let main_v16 : IVec S2 1 := cmpf .olt main_v14 main_v15
  fn_part1 (F := F) main_arg4 main_arg5 main_v13 main_v16
-- ==== Kernel.lean ====
abbrev S8x512x2 : Shape := ⟨3, ![8, 512, 2]⟩
abbrev S8x512x1 : Shape := ⟨3, ![8, 512, 1]⟩
abbrev S8x4096x2 : Shape := ⟨3, ![8, 4096, 2]⟩
abbrev S2 : Shape := ⟨1, ![2]⟩
abbrev S64x2 : Shape := ⟨2, ![64, 2]⟩
abbrev S64 : Shape := ⟨1, ![64]⟩
abbrev S8x2x4096 : Shape := ⟨3, ![8, 2, 4096]⟩
abbrev S1x2 : Shape := ⟨2, ![1, 2]⟩
abbrev S64x1 : Shape := ⟨2, ![64, 1]⟩
abbrev S8x64x4096 : Shape := ⟨3, ![8, 64, 4096]⟩
abbrev S1x512x2 : Shape := ⟨3, ![1, 512, 2]⟩
abbrev S1x512x1 : Shape := ⟨3, ![1, 512, 1]⟩
abbrev S1x2x1024 : Shape := ⟨3, ![1, 2, 1024]⟩
abbrev S1x64x1024 : Shape := ⟨3, ![1, 64, 1024]⟩
abbrev S512x2 : Shape := ⟨2, ![512, 2]⟩
abbrev S512x1 : Shape := ⟨2, ![512, 1]⟩
abbrev S2x1024 : Shape := ⟨2, ![2, 1024]⟩
abbrev S1x1024 : Shape := ⟨2, ![1, 1024]⟩
abbrev S512x1024 : Shape := ⟨2, ![512, 1024]⟩
abbrev S1x1 : Shape := ⟨2, ![1, 1]⟩
abbrev S1024 : Shape := ⟨1, ![1024]⟩
abbrev S64x1024 : Shape := ⟨2, ![64, 1024]⟩
abbrev S8x64x64x64 : Shape := ⟨4, ![8, 64, 64, 64]⟩

abbrev nBuf : Space → Nat
  | .hbm => 11
  | .vmem => 11
  | .smem => 0
  | _ => 0

abbrev bufTy : (tb : Table) → Fin (tcTables nBuf tb) → BufTy
  | .hbm, ⟨0, _⟩ => ⟨S8x512x2, .f32⟩
  | .hbm, ⟨1, _⟩ => ⟨S8x512x1, .f32⟩
  | .hbm, ⟨2, _⟩ => ⟨S8x4096x2, .f32⟩
  | .hbm, ⟨3, _⟩ => ⟨S2, .f32⟩
  | .hbm, ⟨4, _⟩ => ⟨S64x2, .f32⟩
  | .hbm, ⟨5, _⟩ => ⟨S64, .f32⟩
  | .hbm, ⟨6, _⟩ => ⟨S8x2x4096, .f32⟩
  | .hbm, ⟨7, _⟩ => ⟨S1x2, .f32⟩
  | .hbm, ⟨8, _⟩ => ⟨S64x1, .f32⟩
  | .hbm, ⟨9, _⟩ => ⟨S8x64x4096, .f32⟩
  | .hbm, ⟨10, _⟩ => ⟨S8x64x64x64, .f32⟩
  | .local _ .vmem, ⟨0, _⟩ => ⟨S1x512x2, .f32⟩
  | .local _ .vmem, ⟨1, _⟩ => ⟨S1x512x2, .f32⟩
  | .local _ .vmem, ⟨2, _⟩ => ⟨S1x512x1, .f32⟩
  | .local _ .vmem, ⟨3, _⟩ => ⟨S1x512x1, .f32⟩
  | .local _ .vmem, ⟨4, _⟩ => ⟨S1x2x1024, .f32⟩
  | .local _ .vmem, ⟨5, _⟩ => ⟨S1x2x1024, .f32⟩
  | .local _ .vmem, ⟨6, _⟩ => ⟨S1x2, .f32⟩
  | .local _ .vmem, ⟨7, _⟩ => ⟨S64x2, .f32⟩
  | .local _ .vmem, ⟨8, _⟩ => ⟨S64x1, .f32⟩
  | .local _ .vmem, ⟨9, _⟩ => ⟨S1x64x1024, .f32⟩
  | .local _ .vmem, ⟨10, _⟩ => ⟨S1x64x1024, .f32⟩
  | _, _ => ⟨S8x512x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  transposes_S8x4096x2_S8x2x4096_0_2_1 : S8x4096x2.Transposes [0, 2, 1] S8x2x4096
  shapeCasts_S2_S1x2 : S2.ShapeCasts S1x2
  shapeCasts_S64_S64x1 : S64.ShapeCasts S64x1
  inb_S1x512x2_S1x512x2_0_0_0 : ∀ a, (![0, 0, 0] : Fin 3 → Nat) a + S1x512x2.size a ≤ S1x512x2.size a
  h_S1x512x2 : 0 < S1x512x2.numel
  shapeCasts_S1x512x2_S512x2 : S1x512x2.ShapeCasts S512x2
  slices_S512x2_o0_0_S512x1 : S512x2.Slices ![0, 0] S512x1
  slices_S512x2_o0_1_S512x1 : S512x2.Slices ![0, 1] S512x1
  inb_S1x2x1024_S1x2x1024_0_0_0 : ∀ a, (![0, 0, 0] : Fin 3 → Nat) a + S1x2x1024.size a ≤ S1x2x1024.size a
  h_S1x2x1024 : 0 < S1x2x1024.numel
  shapeCasts_S1x2x1024_S2x1024 : S1x2x1024.ShapeCasts S2x1024
  slices_S2x1024_o0_0_S1x1024 : S2x1024.Slices ![0, 0] S1x1024
  slices_S2x1024_o1_0_S1x1024 : S2x1024.Slices ![1, 0] S1x1024
  broadcasts_S1x1024_S512x1024 : S1x1024.Broadcasts S512x1024
  broadcasts_S512x1_S512x1024 : S512x1.Broadcasts S512x1024
  inb_S1x2_S1x2_0_0 : ∀ a, (![0, 0] : Fin 2 → Nat) a + S1x2.size a ≤ S1x2.size a
  h_S1x2 : 0 < S1x2.numel
  shapeCasts_S1x2_S1x2 : S1x2.ShapeCasts S1x2
  slices_S1x2_o0_0_S1x1 : S1x2.Slices ![0, 0] S1x1
  slices_S1x2_o0_1_S1x1 : S1x2.Slices ![0, 1] S1x1
  broadcasts_S1x1_S512x1024 : S1x1.Broadcasts S512x1024
  reduces_S512x1024_S1024 : S512x1024.Reduces [0] S1024
  shapeCasts_S1024_S1x1024 : S1024.ShapeCasts S1x1024
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S64x2_S64x2_0_0 : ∀ a, (![0, 0] : Fin 2 → Nat) a + S64x2.size a ≤ S64x2.size a
  h_S64x2 : 0 < S64x2.numel
  slices_S64x2_o0_0_S64x1 : S64x2.Slices ![0, 0] S64x1
  slices_S64x2_o0_1_S64x1 : S64x2.Slices ![0, 1] S64x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x1024 : S64x1.Broadcasts S64x1024
  broadcasts_S1x1024_S64x1024 : S1x1024.Broadcasts S64x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  shapeCasts_S8x64x4096_S8x64x64x64 : S8x64x4096.ShapeCasts S8x64x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2.size a ≤ S8x512x2.size a
  hwx0_0 : ∀ i : grid0.Coords, EltTy.bits .f32 = 32 ∨ (Rect.block (s := S8x512x2) S1x512x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1.size a ≤ S8x512x1.size a
  hwx0_1 : ∀ i : grid0.Coords, EltTy.bits .f32 = 32 ∨ (Rect.block (s := S8x512x1) S1x512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x1024.size a ≤ S8x2x4096.size a
  hwx0_2 : ∀ i : grid0.Coords, EltTy.bits .f32 = 32 ∨ (Rect.block (s := S8x2x4096) S1x2x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2.size a ≤ S1x2.size a
  hwx0_3 : ∀ i : grid0.Coords, EltTy.bits .f32 = 32 ∨ (Rect.block (s := S1x2) S1x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x2.size a ≤ S64x2.size a
  hwx0_4 : ∀ i : grid0.Coords, EltTy.bits .f32 = 32 ∨ (Rect.block (s := S64x2) S64x2.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x64x1024.size a ≤ S8x64x4096.size a
  hwx0_6 : ∀ i : grid0.Coords, EltTy.bits .f32 = 32 ∨ (Rect.block (s := S8x64x4096) S1x64x1024.size (cc0_transform_6 i) (hinb0_6 i)).WholeWords (EltTy.packing .f32)

variable [Facts₀]

abbrev win0_0 : Pipeline.Window sig grid0 :=
  Pipeline.Window.ofSpec (Memref.whole main_arg0) S1x512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x64x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x512x2 : Shape := ⟨3, ![8, 512, 2]⟩
abbrev S8x512x1 : Shape := ⟨3, ![8, 512, 1]⟩
abbrev S8x4096x2 : Shape := ⟨3, ![8, 4096, 2]⟩
abbrev S2 : Shape := ⟨1, ![2]⟩
abbrev S64x2 : Shape := ⟨2, ![64, 2]⟩
abbrev S64 : Shape := ⟨1, ![64]⟩
abbrev S8x1x4096x2 : Shape := ⟨4, ![8, 1, 4096, 2]⟩
abbrev S8x512x1x2 : Shape := ⟨4, ![8, 512, 1, 2]⟩
abbrev S8x512x4096x2 : Shape := ⟨4, ![8, 512, 4096, 2]⟩
abbrev S_ : Shape := ⟨0, ![]⟩
abbrev S8x512x4096 : Shape := ⟨3, ![8, 512, 4096]⟩
abbrev S8x512x4096x1 : Shape := ⟨4, ![8, 512, 4096, 1]⟩
abbrev S1x1x1x2 : Shape := ⟨4, ![1, 1, 1, 2]⟩
abbrev S8x4096x1 : Shape := ⟨3, ![8, 4096, 1]⟩
abbrev S8x4096x64 : Shape := ⟨3, ![8, 4096, 64]⟩
abbrev S1x1x64 : Shape := ⟨3, ![1, 1, 64]⟩
abbrev S8x64x4096 : Shape := ⟨3, ![8, 64, 4096]⟩
abbrev S8x64x64x64 : Shape := ⟨4, ![8, 64, 64, 64]⟩

abbrev nBuf : Space → Nat
  | .hbm => 55
  | .vmem => 0
  | .smem => 0
  | _ => 0

abbrev bufTy : (tb : Table) → Fin (tcTables nBuf tb) → BufTy
  | .hbm, ⟨0, _⟩ => ⟨S8x512x2, .f32⟩
  | .hbm, ⟨1, _⟩ => ⟨S8x512x1, .f32⟩
  | .hbm, ⟨2, _⟩ => ⟨S8x4096x2, .f32⟩
  | .hbm, ⟨3, _⟩ => ⟨S2, .f32⟩
  | .hbm, ⟨4, _⟩ => ⟨S64x2, .f32⟩
  | .hbm, ⟨5, _⟩ => ⟨S64, .f32⟩
  | .hbm, ⟨6, _⟩ => ⟨S8x1x4096x2, .f32⟩
  | .hbm, ⟨7, _⟩ => ⟨S8x512x1x2, .f32⟩
  | .hbm, ⟨8, _⟩ => ⟨S8x512x4096x2, .f32⟩
  | .hbm, ⟨9, _⟩ => ⟨S8x512x4096x2, .f32⟩
  | .hbm, ⟨10, _⟩ => ⟨S8x512x4096x2, .f32⟩
  | .hbm, ⟨11, _⟩ => ⟨S8x512x4096x2, .f32⟩
  | .hbm, ⟨12, _⟩ => ⟨S_, .f32⟩
  | .hbm, ⟨13, _⟩ => ⟨S8x512x4096, .f32⟩
  | .hbm, ⟨14, _⟩ => ⟨S8x512x4096, .f32⟩
  | .hbm, ⟨15, _⟩ => ⟨S2, .f32⟩
  | .hbm, ⟨16, _⟩ => ⟨S8x512x4096x1, .f32⟩
  | .hbm, ⟨17, _⟩ => ⟨S_, .f32⟩
  | .hbm, ⟨18, _⟩ => ⟨S8x512x4096x1, .f32⟩
  | .hbm, ⟨19, _⟩ => ⟨S8x512x4096x1, .f32⟩
  | .hbm, ⟨20, _⟩ => ⟨S2, .f32⟩
  | .hbm, ⟨21, _⟩ => ⟨S1x1x1x2, .f32⟩
  | .hbm, ⟨22, _⟩ => ⟨S8x512x4096x2, .f32⟩
  | .hbm, ⟨23, _⟩ => ⟨S8x512x4096x2, .f32⟩
  | .hbm, ⟨24, _⟩ => ⟨S8x512x4096x2, .f32⟩
  | .hbm, ⟨25, _⟩ => ⟨S8x512x4096x2, .f32⟩
  | .hbm, ⟨26, _⟩ => ⟨S_, .f32⟩
  | .hbm, ⟨27, _⟩ => ⟨S8x512x1, .f32⟩
  | .hbm, ⟨28, _⟩ => ⟨S8x512x2, .f32⟩
  | .hbm, ⟨29, _⟩ => ⟨S8x512x1x2, .f32⟩
  | .hbm, ⟨30, _⟩ => ⟨S8x512x4096x2, .f32⟩
  | .hbm, ⟨31, _⟩ => ⟨S8x512x4096x2, .f32⟩
  | .hbm, ⟨32, _⟩ => ⟨S_, .f32⟩
  | .hbm, ⟨33, _⟩ => ⟨S8x4096x2, .f32⟩
  | .hbm, ⟨34, _⟩ => ⟨S8x4096x1, .f32⟩
  | .hbm, ⟨35, _⟩ => ⟨S8x4096x1, .f32⟩
  | .hbm, ⟨36, _⟩ => ⟨S_, .f32⟩
  | .hbm, ⟨37, _⟩ => ⟨S8x4096x1, .f32⟩
  | .hbm, ⟨38, _⟩ => ⟨S8x4096x1, .f32⟩
  | .hbm, ⟨39, _⟩ => ⟨S8x4096x1, .f32⟩
  | .hbm, ⟨40, _⟩ => ⟨S8x4096x2, .f32⟩
  | .hbm, ⟨41, _⟩ => ⟨S8x4096x64, .f32⟩
  | .hbm, ⟨42, _⟩ => ⟨S1x1x64, .f32⟩
  | .hbm, ⟨43, _⟩ => ⟨S8x4096x64, .f32⟩
  | .hbm, ⟨44, _⟩ => ⟨S8x4096x64, .f32⟩
  | .hbm, ⟨45, _⟩ => ⟨S8x4096x64, .f32⟩
  | .hbm, ⟨46, _⟩ => ⟨S8x4096x64, .f32⟩
  | .hbm, ⟨47, _⟩ => ⟨S_, .f32⟩
  | .hbm, ⟨48, _⟩ => ⟨S8x4096x64, .f32⟩
  | .hbm, ⟨49, _⟩ => ⟨S8x4096x64, .f32⟩
  | .hbm, ⟨50, _⟩ => ⟨S_, .f32⟩
  | .hbm, ⟨51, _⟩ => ⟨S8x4096x64, .f32⟩
  | .hbm, ⟨52, _⟩ => ⟨S8x4096x64, .f32⟩
  | .hbm, ⟨53, _⟩ => ⟨S8x64x4096, .f32⟩
  | .hbm, ⟨54, _⟩ => ⟨S8x64x64x64, .f32⟩
  | _, _ => ⟨S8x512x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]

class Facts₀ : Prop where
  bcast_S8x4096x2_S8x1x4096x2_0_2_3 : S8x4096x2.BroadcastsInDim S8x1x4096x2 (![0, 2, 3] : Fin 3 → Fin S8x1x4096x2.rank)
  bcast_S8x512x2_S8x512x1x2_0_1_3 : S8x512x2.BroadcastsInDim S8x512x1x2 (![0, 1, 3] : Fin 3 → Fin S8x512x1x2.rank)
  bcast_S8x1x4096x2_S8x512x4096x2_0_1_2_3 : S8x1x4096x2.BroadcastsInDim S8x512x4096x2 (![0, 1, 2, 3] : Fin 4 → Fin S8x512x4096x2.rank)
  bcast_S8x512x1x2_S8x512x4096x2_0_1_2_3 : S8x512x1x2.BroadcastsInDim S8x512x4096x2 (![0, 1, 2, 3] : Fin 4 → Fin S8x512x4096x2.rank)
  reducesTo_S8x512x4096x2_S8x512x4096_d3 : S8x512x4096x2.ReducesTo [3] S8x512x4096
  h_S_ : 0 < S_.numel
  bcast_S8x512x4096_S8x512x4096x1_0_1_2 : S8x512x4096.BroadcastsInDim S8x512x4096x1 (![0, 1, 2] : Fin 3 → Fin S8x512x4096x1.rank)
  bcast_S_S8x512x4096x1 : S_.BroadcastsInDim S8x512x4096x1 (![] : Fin 0 → Fin S8x512x4096x1.rank)
  bcast_S2_S1x1x1x2_3 : S2.BroadcastsInDim S1x1x1x2 (![3] : Fin 1 → Fin S1x1x1x2.rank)
  bcast_S8x512x4096x1_S8x512x4096x2_0_1_2_3 : S8x512x4096x1.BroadcastsInDim S8x512x4096x2 (![0, 1, 2, 3] : Fin 4 → Fin S8x512x4096x2.rank)
  bcast_S1x1x1x2_S8x512x4096x2_0_1_2_3 : S1x1x1x2.BroadcastsInDim S8x512x4096x2 (![0, 1, 2, 3] : Fin 4 → Fin S8x512x4096x2.rank)
  bcast_S_S8x512x1 : S_.BroadcastsInDim S8x512x1 (![] : Fin 0 → Fin S8x512x1.rank)
  concatenates_S8x512x1_S8x512x1_S8x512x2_d2 : Shape.Concatenates [S8x512x1, S8x512x1] S8x512x2 2
  reducesTo_S8x512x4096x2_S8x4096x2_d1 : S8x512x4096x2.ReducesTo [1] S8x4096x2
  slices_S8x4096x2_S8x4096x1_0_0_0 : S8x4096x2.Slices ![0, 0, 0] S8x4096x1
  slices_S8x4096x2_S8x4096x1_0_0_1 : S8x4096x2.Slices ![0, 0, 1] S8x4096x1
  bcast_S_S8x4096x1 : S_.BroadcastsInDim S8x4096x1 (![] : Fin 0 → Fin S8x4096x1.rank)
  concatenates_S8x4096x1_S8x4096x1_S8x4096x2_d2 : Shape.Concatenates [S8x4096x1, S8x4096x1] S8x4096x2 2
  bcast_S64_S1x1x64_2 : S64.BroadcastsInDim S1x1x64 (![2] : Fin 1 → Fin S1x1x64.rank)
  bcast_S1x1x64_S8x4096x64_0_1_2 : S1x1x64.BroadcastsInDim S8x4096x64 (![0, 1, 2] : Fin 3 → Fin S8x4096x64.rank)
  bcast_S_S8x4096x64 : S_.BroadcastsInDim S8x4096x64 (![] : Fin 0 → Fin S8x4096x64.rank)
  transposes_S8x4096x64_S8x64x4096_0_2_1 : S8x4096x64.Transposes [0, 2, 1] S8x64x4096
  shapeCasts_S8x64x4096_S8x64x64x64 : S8x64x4096.ShapeCasts S8x64x64x64
  dot_S8x4096x2_S64x2_S8x4096x64_2_1_01_0_n_n_wf : DotDims.WF S8x4096x2 S64x2 S8x4096x64 [2] [1] [0, 1] [0] [] []

variable [Facts₀]

def dot_S8x4096x2_S64x2_S8x4096x64_2_1_01_0_n_n : DotDims S8x4096x2 S64x2 S8x4096x64 where
  lhsContracting := [2]
  rhsContracting := [1]
  lhsNonContracting := [0, 1]
  rhsNonContracting := [0]
  lhsBatch := []
  rhsBatch := []
  wf := dot_S8x4096x2_S64x2_S8x4096x64_2_1_01_0_n_n_wf

class Facts : Prop extends Facts₀ where

variable [Facts]
-- ==== Proof.Spec.lean ====
/-
  The result of the kernel and of its reference, as one function of the six argument arrays.

  For a batch b, an output channel k and a grid point o (with the 512 context points of batch b indexed by i):

    dist i      = sqrt ((g 0 - p i 0)^2 + (g 1 - p i 1)^2)          -- g = grid point o, p i = context point i
    weight s d  = exp ((-1/2 * d) / (exp s * exp s))                 -- s a log length scale
    density     = Σ_i weight (σ 0) (dist i)
    wsum        = Σ_i y i * weight (σ 1) (dist i)
    out         = logistic (w 0 * density + w 1 * (wsum / (density + ε)) + bias)

  over the extended reals, every operation the exact one; the two float literals (-1/2 and ε) stay as the
  words both programs print. `pointValue` is that scalar from the data of one (b, k, o); `result` reads the six
  arrays at the coordinates that data sits at.
-/
import Idealize.ShloMosaic.PureOps.Ideal
import Idealize.ShloMosaic.Lib.ValueIdx

noncomputable section

open scoped BigOperators

namespace Cert.RbfConv

open Idealize.ShloMosaic Idealize.ShloMosaic.ValueIdx

/-- The Euclidean distance in the plane between a context point `p` and a grid point `g`. -/
def dist (p g : Fin 2 → EReal) : EReal :=
  Ideal.sqrt ((g 0 - p 0) * (g 0 - p 0) + (g 1 - p 1) * (g 1 - p 1))

/-- The kernel weight of a distance `d` at log length scale `s`: exp (-d/2 / (e^s)^2). -/
def weight (s d : EReal) : EReal :=
  Ideal.exp (Ideal.div (Ideal.ofBits .f32 0xBF000000#32 * d) (Ideal.exp s * Ideal.exp s))

/-- The density channel at a grid point: the weights of all context points at the first length scale, summed. -/
def density (p : Fin 512 → Fin 2 → EReal) (g σ : Fin 2 → EReal) : EReal :=
  ∑ i : Fin 512, weight (σ 0) (dist (p i) g)

/-- The data channel at a grid point: the context values weighted at the second length scale, summed. -/
def wsum (p : Fin 512 → Fin 2 → EReal) (y : Fin 512 → EReal) (g σ : Fin 2 → EReal) : EReal :=
  ∑ i : Fin 512, y i * weight (σ 1) (dist (p i) g)

/-- The value at one (batch, channel, grid point): the density and the density-normalised data channel, mixed by
    the channel's two weights and bias, through the logistic function. -/
def pointValue (p : Fin 512 → Fin 2 → EReal) (y : Fin 512 → EReal) (g σ w : Fin 2 → EReal) (bias : EReal) : EReal :=
  Ideal.logistic (w 0 * density p g σ
    + w 1 * Ideal.div (wsum p y g σ) (density p g σ + Ideal.ofBits .f32 0x322BCC77#32) + bias)

/-- The whole result, laid out [batch, channel, grid point], from the argument arrays: context points [8, 512, 2],
    context values [8, 512, 1], grid points [8, 4096, 2], log length scales [2], weights [64, 2], biases [64]. -/
def result (xc : (⟨3, ![8, 512, 2]⟩ : Shape).Idx → EReal) (yc : (⟨3, ![8, 512, 1]⟩ : Shape).Idx → EReal)
    (xg : (⟨3, ![8, 4096, 2]⟩ : Shape).Idx → EReal) (σ : (⟨1, ![2]⟩ : Shape).Idx → EReal)
    (W : (⟨2, ![64, 2]⟩ : Shape).Idx → EReal) (bias : (⟨1, ![64]⟩ : Shape).Idx → EReal) :
    (⟨3, ![8, 64, 4096]⟩ : Shape).Idx → EReal := fun j =>
  pointValue (fun i c => xc (ix3 (j 0) i c)) (fun i => yc (ix3 (j 0) i (0 : Fin 1))) (fun c => xg (ix3 (j 0) (j 2) c))
    (fun c => σ (ix1 c)) (fun c => W (ix2 (j 1) c)) (bias (ix1 (j 1)))

/-- The float word of 1 denotes 1. -/
theorem ofBits_one : Ideal.ofBits .f32 0x3F800000#32 = 1 := by
  simp [Ideal.ofBits, Ideal.ieee, -EReal.coe_mul]; norm_num

end Cert.RbfConv

end
-- ==== Proof.RefIsSpec.lean ====
/-
  The reference program computes `Cert.RbfConv.result` of its arguments.
-/
import proofs.«163372_j23776938951441_1_alg».proof.Proof.Gen.ReferenceIdeal.Read
import proofs.«163372_j23776938951441_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx Cert.RbfConv

variable (x0 : (⟨S8x512x2, .f32⟩ : BufTy).Contents (Elt Ideal)) (x1 : (⟨S8x512x1, .f32⟩ : BufTy).Contents (Elt Ideal))
  (x2 : (⟨S8x4096x2, .f32⟩ : BufTy).Contents (Elt Ideal)) (x3 : (⟨S2, .f32⟩ : BufTy).Contents (Elt Ideal))
  (x4 : (⟨S64x2, .f32⟩ : BufTy).Contents (Elt Ideal)) (x5 : (⟨S64, .f32⟩ : BufTy).Contents (Elt Ideal))

/-- The norm of the difference of grid point o and context point i of batch b is their distance: the host's sum
    over the two coordinates starts from the zero word and adds the two squares. -/
theorem norm_at (b : Fin 8) (i : Fin 512) (o : Fin 4096) :
    val_main_v5 (F := Ideal) x0 x2 (ix3 b i o) = dist (fun c => x0 (ix3 b i c)) (fun c => x2 (ix3 b o c)) := by
  rw [val_main_v5_apply, val_main_call0_v1_apply, Fin.sum_univ_two]
  simp only [val_main_call0_v0_apply, val_main_v4_apply, val_main_v2_apply, val_main_v0_apply, val_main_v3_apply,
    val_main_v1_apply, val_main_call0_cst_apply]
  have e0 : ∀ k : Fin 2, idx_main_v0 (idx_main_v2 (idx_main_call0_v1 (ix3 b i o) k)) = ix3 b o k := fun k =>
    funext fun a => Fin.ext (by match a with | ⟨0, _⟩ => rfl | ⟨1, _⟩ => rfl | ⟨2, _⟩ => rfl)
  have e1 : ∀ k : Fin 2, idx_main_v1 (idx_main_v3 (idx_main_call0_v1 (ix3 b i o) k)) = ix3 b i k := fun k =>
    funext fun a => Fin.ext (by match a with | ⟨0, _⟩ => rfl | ⟨1, _⟩ => rfl | ⟨2, _⟩ => rfl)
  simp only [e0, e1]
  show Ideal.sqrt (Ideal.ofBits .f32 0x00000000#32 + (_ + _)) = _
  rw [Ideal.ofBits_zero_f32, zero_add]
  rfl

/-- The reference's weight array at (b, i, o, c): the weight of the distance of context point i and grid point o of
    batch b at length scale c. -/
theorem weight_at (b : Fin 8) (i : Fin 512) (o : Fin 4096) (c : Fin 2) :
    val_main_v15 (F := Ideal) x0 x2 x3 (ix4 b i o c)
      = weight (x3 (ix1 c)) (dist (fun c => x0 (ix3 b i c)) (fun c => x2 (ix3 b o c))) := by
  simp only [val_main_v15_apply, val_main_v14_apply, val_main_v12_apply, val_main_v9_apply, val_main_v8_apply,
    val_main_cst_apply, val_main_v7_apply, val_main_v13_apply, val_main_v11_apply, val_main_v10_apply, val_main_v6_apply]
  have e0 : idx_main_v7 (idx_main_v12 (ix4 b i o c)) = ix3 b i o :=
    funext fun a => Fin.ext (by match a with | ⟨0, _⟩ => rfl | ⟨1, _⟩ => rfl | ⟨2, _⟩ => rfl)
  have e1 : idx_main_v11 (idx_main_v13 (ix4 b i o c)) = ix1 c :=
    funext fun a => Fin.ext (by match a with | ⟨0, _⟩ => rfl)
  rw [e0, e1, norm_at]
  rfl

/-- The values the sums weigh, read through the two broadcasts: channel c of context point i of batch b of the
    concatenation of ones and context values. -/
theorem joined_at (b : Fin 8) (i : Fin 512) (o : Fin 4096) (c : Fin 2) :
    val_main_v19 (F := Ideal) x1 (ix4 b i o c) = val_main_v17 (F := Ideal) x1 (ix3 b i c) := by
  rw [val_main_v19_apply, val_main_v18_apply]
  exact congrArg _ (funext fun a => Fin.ext (by match a with | ⟨0, _⟩ => rfl | ⟨1, _⟩ => rfl | ⟨2, _⟩ => rfl))

/-- Channel 0 of the concatenation is the constant one. -/
theorem joined_zero (b : Fin 8) (i : Fin 512) : val_main_v17 (F := Ideal) x1 (ix3 b i (0 : Fin 2)) = 1 := by
  unfold val_main_v17
  rw [concatenate_pair_apply_left (s₁ := S8x512x1) (s₂ := S8x512x1) _ _ _ _ (ix3 b i (0 : Fin 2)) rfl (ix3 b i (0 : Fin 1))
    (fun a => by match a with | ⟨0, _⟩ => rfl | ⟨1, _⟩ => rfl | ⟨2, _⟩ => rfl)]
  rw [val_main_v16_apply, val_main_cst_0_apply]
  exact ofBits_one

/-- Channel 1 of the concatenation is the context value. -/
theorem joined_one (b : Fin 8) (i : Fin 512) :
    val_main_v17 (F := Ideal) x1 (ix3 b i (1 : Fin 2)) = x1 (ix3 b i (0 : Fin 1)) := by
  unfold val_main_v17
  exact concatenate_pair_apply_right (s₁ := S8x512x1) (s₂ := S8x512x1) _ _ _ _ (ix3 b i (1 : Fin 2)) rfl rfl (ix3 b i (0 : Fin 1))
    (fun a ha => by
      match a, ha with
      | ⟨0, _⟩, _ => rfl
      | ⟨1, _⟩, _ => rfl
      | ⟨2, _⟩, ha => exact absurd rfl ha) rfl

/-- The sum over the context points, channel 0: the density (each weight times one, from zero). -/
theorem density_at (b : Fin 8) (o : Fin 4096) :
    val_main_v21 (F := Ideal) x0 x1 x2 x3 (ix3 b o (0 : Fin 2))
      = density (fun i c => x0 (ix3 b i c)) (fun c => x2 (ix3 b o c)) (fun c => x3 (ix1 c)) := by
  rw [val_main_v21_apply, val_main_cst_1_apply]
  show Ideal.ofBits .f32 0x00000000#32 + _ = _
  rw [Ideal.ofBits_zero_f32, zero_add]
  unfold density
  refine Finset.sum_congr rfl fun i _ => ?_
  have e : idx_main_v21 (ix3 b o (0 : Fin 2)) i = ix4 b i o (0 : Fin 2) :=
    funext fun a => Fin.ext (by match a with | ⟨0, _⟩ => rfl | ⟨1, _⟩ => rfl | ⟨2, _⟩ => rfl | ⟨3, _⟩ => rfl)
  rw [e, val_main_v20_apply, joined_at, joined_zero, weight_at]
  show (1 : EReal) * _ = _
  rw [one_mul]

/-- The sum over the context points, channel 1: the weighted context values. -/
theorem wsum_at (b : Fin 8) (o : Fin 4096) :
    val_main_v21 (F := Ideal) x0 x1 x2 x3 (ix3 b o (1 : Fin 2))
      = wsum (fun i c => x0 (ix3 b i c)) (fun i => x1 (ix3 b i (0 : Fin 1))) (fun c => x2 (ix3 b o c)) (fun c => x3 (ix1 c)) := by
  rw [val_main_v21_apply, val_main_cst_1_apply]
  show Ideal.ofBits .f32 0x00000000#32 + _ = _
  rw [Ideal.ofBits_zero_f32, zero_add]
  unfold wsum
  refine Finset.sum_congr rfl fun i _ => ?_
  have e : idx_main_v21 (ix3 b o (1 : Fin 2)) i = ix4 b i o (1 : Fin 2) :=
    funext fun a => Fin.ext (by match a with | ⟨0, _⟩ => rfl | ⟨1, _⟩ => rfl | ⟨2, _⟩ => rfl | ⟨3, _⟩ => rfl)
  rw [e, val_main_v20_apply, joined_at, joined_one, weight_at]
  rfl

/-- Channel 0 of what the linear layer reads is the density. -/
theorem mixed_zero (b : Fin 8) (o : Fin 4096) :
    val_main_v27 (F := Ideal) x0 x1 x2 x3 (ix3 b o (0 : Fin 2))
      = density (fun i c => x0 (ix3 b i c)) (fun c => x2 (ix3 b o c)) (fun c => x3 (ix1 c)) := by
  unfold val_main_v27
  rw [concatenate_pair_apply_left (s₁ := S8x4096x1) (s₂ := S8x4096x1) _ _ _ _ (ix3 b o (0 : Fin 2)) rfl (ix3 b o (0 : Fin 1))
    (fun a => by match a with | ⟨0, _⟩ => rfl | ⟨1, _⟩ => rfl | ⟨2, _⟩ => rfl)]
  rw [val_main_v22_apply]
  have e : idx_main_v22 (ix3 b o (0 : Fin 1)) = ix3 b o (0 : Fin 2) :=
    funext fun a => Fin.ext (by match a with | ⟨0, _⟩ => rfl | ⟨1, _⟩ => rfl | ⟨2, _⟩ => rfl)
  rw [e, density_at]

/-- Channel 1 of what the linear layer reads is the weighted sum over the density plus the small constant. -/
theorem mixed_one (b : Fin 8) (o : Fin 4096) :
    val_main_v27 (F := Ideal) x0 x1 x2 x3 (ix3 b o (1 : Fin 2))
      = Ideal.div (wsum (fun i c => x0 (ix3 b i c)) (fun i => x1 (ix3 b i (0 : Fin 1))) (fun c => x2 (ix3 b o c)) (fun c => x3 (ix1 c)))
          (density (fun i c => x0 (ix3 b i c)) (fun c => x2 (ix3 b o c)) (fun c => x3 (ix1 c)) + Ideal.ofBits .f32 0x322BCC77#32) := by
  unfold val_main_v27
  rw [concatenate_pair_apply_right (s₁ := S8x4096x1) (s₂ := S8x4096x1) _ _ _ _ (ix3 b o (1 : Fin 2)) rfl rfl (ix3 b o (0 : Fin 1))
    (fun a ha => by
      match a, ha with
      | ⟨0, _⟩, _ => rfl
      | ⟨1, _⟩, _ => rfl
      | ⟨2, _⟩, ha => exact absurd rfl ha) rfl]
  rw [val_main_v26_apply, val_main_v23_apply, val_main_v25_apply, val_main_v22_apply, val_main_v24_apply, val_main_cst_2_apply]
  have e0 : idx_main_v22 (ix3 b o (0 : Fin 1)) = ix3 b o (0 : Fin 2) :=
    funext fun a => Fin.ext (by match a with | ⟨0, _⟩ => rfl | ⟨1, _⟩ => rfl | ⟨2, _⟩ => rfl)
  have e1 : idx_main_v23 (ix3 b o (0 : Fin 1)) = ix3 b o (1 : Fin 2) :=
    funext fun a => Fin.ext (by match a with | ⟨0, _⟩ => rfl | ⟨1, _⟩ => rfl | ⟨2, _⟩ => rfl)
  rw [e0, e1, density_at, wsum_at]
  rfl

/-- The reference's result before its last reshape, laid out [batch, channel, grid point], is `result`: the linear
    layer's two-term sum is the kernel's two products with the factors the other way round, and the host's
    1 / (1 + exp (-x)) is the logistic function. -/
theorem ref_eq : val_main_v38 (F := Ideal) x0 x1 x2 x3 x4 x5 = result x0 x1 x2 x3 x4 x5 := by
  funext j
  obtain ⟨b, k, o, rfl⟩ : ∃ (b : Fin 8) (k : Fin 64) (o : Fin 4096), j = ix3 b k o := ⟨j 0, j 1, j 2, eq_ix3 j⟩
  rw [val_main_v38_apply]
  have e : idx_main_v38 (ix3 b k o) = ix3 b o k :=
    funext fun a => Fin.ext (by match a with | ⟨0, _⟩ => rfl | ⟨1, _⟩ => rfl | ⟨2, _⟩ => rfl)
  rw [e, val_main_v37_apply, val_main_v36_apply, val_main_cst_4_apply, val_main_v35_apply, val_main_v34_apply,
    val_main_cst_3_apply, val_main_v33_apply, val_main_v32_apply, val_main_v31_apply, val_main_v30_apply,
    val_main_v29_apply, val_main_v28_apply, Fin.sum_univ_two]
  have l0 : lidx_main_v28 (ix3 b o k) (0 : Fin 2) = ix3 b o (0 : Fin 2) :=
    funext fun a => Fin.ext (by match a with | ⟨0, _⟩ => rfl | ⟨1, _⟩ => rfl | ⟨2, _⟩ => rfl)
  have l1 : lidx_main_v28 (ix3 b o k) (1 : Fin 2) = ix3 b o (1 : Fin 2) :=
    funext fun a => Fin.ext (by match a with | ⟨0, _⟩ => rfl | ⟨1, _⟩ => rfl | ⟨2, _⟩ => rfl)
  have r0 : ridx_main_v28 (ix3 b o k) (0 : Fin 2) = ix2 k (0 : Fin 2) :=
    funext fun a => Fin.ext (by match a with | ⟨0, _⟩ => rfl | ⟨1, _⟩ => rfl)
  have r1 : ridx_main_v28 (ix3 b o k) (1 : Fin 2) = ix2 k (1 : Fin 2) :=
    funext fun a => Fin.ext (by match a with | ⟨0, _⟩ => rfl | ⟨1, _⟩ => rfl)
  have eb : idx_main_v29 (idx_main_v30 (ix3 b o k)) = ix1 k :=
    funext fun a => Fin.ext (by match a with | ⟨0, _⟩ => rfl)
  rw [l0, l1, r0, r1, eb, mixed_zero, mixed_one]
  show Ideal.div (Ideal.ofBits .f32 0x3F800000#32) (Ideal.ofBits .f32 0x3F800000#32 + Ideal.exp (-(_ * _ + _ * _ + _))) = _
  rw [ofBits_one, mul_comm _ (x4 (ix2 k (0 : Fin 2))), mul_comm _ (x4 (ix2 k (1 : Fin 2)))]
  rfl

end Cert.ReferenceIdeal.RefValue

end
-- ==== Proof.LibColumnForms.lean ====
/-
  Four matrix forms read at coordinates, for bodies that keep a reduced or sliced axis as a unit axis:
  a column [a, 1] and a single element [1, 1] broadcast to [a, b], a vector [a] cast to a column [a, 1], and the sum
  over the rows of an [a, b] matrix at the exact instance. Imports only the library.
-/
import Idealize.ShloMosaic.Lib.Pipeline.Value
import Idealize.ShloMosaic.Lib.ValueIdx
import Idealize.ShloMosaic.PureOps.Ideal.Laws

noncomputable section

open scoped BigOperators

namespace Cert.ColumnForms

open Idealize.ShloMosaic Idealize.ShloMosaic.ValueIdx

variable {α : Type}

/-- An [a, 1] column broadcast to [a, b] reads, at (p, c), the column's entry in row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [1, 1] matrix broadcast to [a, b] reads its one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) :=
  broadcastTo_apply v h (ix2 p c) (ix2 (0 : Fin 1) (0 : Fin 1)) fun ax =>
    match ax with
    | ⟨0, _⟩ => rfl
    | ⟨1, _⟩ => rfl

/-- An [a] vector cast to an [a, 1] column reads, at (p, u), the vector at p, whatever the unit coordinate u. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum over the rows of an [a, b] matrix of extended reals, read at column q: the sum over the row index of the
    entries of that column. -/
theorem rowSum_apply {a b : ℕ} (src : FVec Ideal ⟨2, ![a, b]⟩ .f32) (acc : BitVec FTy.f32.bits)
    (h : (⟨2, ![a, b]⟩ : Shape).Reduces [0] ⟨1, ![b]⟩) (hφ : FKind.Formats .f32) (hacc : acc = FKind.add.neutral .f32 hφ)
    (q : Fin b) :
    multiReduction .add [0] ⟨1, ![b]⟩ src acc h hφ hacc (ix1 q) = ∑ i : Fin a, src (ix2 i q) :=
  (Ideal.multiReduction_add_single src acc h hφ hacc (ix1 q)).trans
    (Finset.sum_congr rfl fun i _ => congrArg src (funext fun c => Fin.ext (by
      match c with
      | ⟨0, _⟩ => rfl
      | ⟨1, _⟩ => rfl)))

end Cert.ColumnForms

end
-- ==== Proof.Payload.lean ====
/-
  The kernel body's arithmetic at one element of its output block.

  At a grid point the body sees one batch's 512 context points (a [1, 512, 2] block) and values ([1, 512, 1]), a tile
  of 1024 grid points with the two coordinates as rows ([1, 2, 1024]), the two log length scales ([1, 2]), the
  weights ([64, 2]) and the biases as a column ([64, 1]). The element (0, k, q) of what it stores is
  `Cert.RbfConv.pointValue` of context point i at row i, grid point q at column q, channel k at row k.
-/
import proofs.«163372_j23776938951441_1_alg».proof.Proof.Gen.KernelIdeal.Skeleton
import proofs.«163372_j23776938951441_1_alg».proof.Proof.Spec
import proofs.«163372_j23776938951441_1_alg».proof.Proof.LibColumnForms
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx Cert.RbfConv Cert.ColumnForms

/-- The pointwise transcendental operations of a vector of extended reals, at an index. -/
theorem sqrt_apply {s : Shape} (a : FVec Ideal s .f32) (i : s.Idx) : sqrt a i = Ideal.sqrt (a i) := rfl
theorem exp_apply {s : Shape} (a : FVec Ideal s .f32) (i : s.Idx) : exp a i = Ideal.exp (a i) := rfl
theorem logistic_apply {s : Shape} (a : FVec Ideal s .f32) (i : s.Idx) : logistic a i = Ideal.logistic (a i) := rfl

/-- Row i, column q of the distance matrix: the distance of context point i (row i of the context block) and grid
    point q (column q of the grid tile, coordinates down the rows). -/
theorem dist_at (x0 : Vec Ideal S1x512x2 .f32) (x2 : Vec Ideal S1x2x1024 .f32) (i : Fin 512) (q : Fin 1024) :
    k0_pay2 x0 x2 (ix2 i q)
      = dist (fun c => x0 (ix3 (0 : Fin 1) i c)) (fun c => x2 (ix3 (0 : Fin 1) c q)) := by
  simp only [k0_pay2, sqrt_apply, addf_apply, mulf_apply, subf_apply, broadcastTo_1b_ab_apply, broadcastTo_a1_ab_apply,
    slice2_axis0_eq, slice2_axis1_eq, shapeCast_1ab_ab_apply]
  rfl

/-- The length scales: the exponential of the log length scales. -/
theorem scale_at (x3 : Vec Ideal S1x2 .f32) (c : Fin 2) :
    k0_pay3 x3 (ix2 (0 : Fin 1) c) = Ideal.exp (x3 (ix2 (0 : Fin 1) c)) := by
  simp only [k0_pay3, exp_apply, shapeCast_self]

/-- Column q of the density row: the sum down column q of the weights at the first length scale. -/
theorem density_at (x0 : Vec Ideal S1x512x2 .f32) (x2 : Vec Ideal S1x2x1024 .f32) (x3 : Vec Ideal S1x2 .f32) (q : Fin 1024) :
    k0_pay4 x0 x2 x3 (ix2 (0 : Fin 1) q)
      = density (fun i c => x0 (ix3 (0 : Fin 1) i c)) (fun c => x2 (ix3 (0 : Fin 1) c q)) (fun c => x3 (ix2 (0 : Fin 1) c)) := by
  simp only [k0_pay4]
  refine (shapeCast_a_1a_apply _ _ (0 : Fin 1) q).trans ?_
  refine (rowSum_apply _ _ _ _ _ q).trans ?_
  unfold density
  refine Finset.sum_congr rfl fun i _ => ?_
  simp only [exp_apply, divf_apply, mulf_apply, broadcast_apply, broadcastTo_11_ab_apply, slice2_axis1_eq, dist_at, scale_at]
  rfl

/-- Column q of the data row: the sum down column q of the context values times the weights at the second length scale. -/
theorem wsum_at (x0 : Vec Ideal S1x512x2 .f32) (x2 : Vec Ideal S1x2x1024 .f32) (x3 : Vec Ideal S1x2 .f32)
    (x1 : Vec Ideal S1x512x1 .f32) (q : Fin 1024) :
    k0_pay5 x0 x2 x3 x1 (ix2 (0 : Fin 1) q)
      = wsum (fun i c => x0 (ix3 (0 : Fin 1) i c)) (fun i => x1 (ix3 (0 : Fin 1) i (0 : Fin 1)))
          (fun c => x2 (ix3 (0 : Fin 1) c q)) (fun c => x3 (ix2 (0 : Fin 1) c)) := by
  simp only [k0_pay5]
  refine (shapeCast_a_1a_apply _ _ (0 : Fin 1) q).trans ?_
  refine (rowSum_apply _ _ _ _ _ q).trans ?_
  unfold wsum
  refine Finset.sum_congr rfl fun i _ => ?_
  simp only [exp_apply, divf_apply, mulf_apply, broadcast_apply, broadcastTo_11_ab_apply, broadcastTo_a1_ab_apply,
    slice2_axis1_eq, shapeCast_1ab_ab_apply, dist_at, scale_at]
  rfl

/-- Element (0, k, q) of the stored block, from a density row `d` and a data row `s`: the two mixed by row k of the
    weights and of the bias column, through the logistic function. -/
theorem mix_at (d s : FVec Ideal S1x1024 .f32) (x4 : Vec Ideal S64x2 .f32) (x5 : Vec Ideal S64x1 .f32) (k : Fin 64) (q : Fin 1024) :
    k0_pay1 d s x4 x5 (ix3 (0 : Fin 1) k q)
      = Ideal.logistic (x4 (ix2 k (0 : Fin 2)) * d (ix2 (0 : Fin 1) q)
          + x4 (ix2 k (1 : Fin 2)) * Ideal.div (s (ix2 (0 : Fin 1) q)) (d (ix2 (0 : Fin 1) q) + Ideal.ofBits .f32 0x322BCC77#32)
          + x5 (ix2 k (0 : Fin 1))) := by
  simp only [k0_pay1]
  refine (shapeCast_ab_1ab_apply _ _ (0 : Fin 1) k q).trans ?_
  simp only [logistic_apply, addf_apply, mulf_apply, divf_apply, broadcast_apply, broadcastTo_1b_ab_apply, broadcastTo_a1_ab_apply,
    slice2_axis1_eq, shapeCast_self]
  rfl

/-- Element (0, k, q) of what the body stores is the point value of the blocks' rows and columns. -/
theorem payload_at (x0 : Vec Ideal S1x512x2 .f32) (x1 : Vec Ideal S1x512x1 .f32) (x2 : Vec Ideal S1x2x1024 .f32)
    (x3 : Vec Ideal S1x2 .f32) (x4 : Vec Ideal S64x2 .f32) (x5 : Vec Ideal S64x1 .f32) (k : Fin 64) (q : Fin 1024) :
    k0_pay1 (k0_pay4 x0 x2 x3) (k0_pay5 x0 x2 x3 x1) x4 x5 (ix3 (0 : Fin 1) k q)
      = pointValue (fun i c => x0 (ix3 (0 : Fin 1) i c)) (fun i => x1 (ix3 (0 : Fin 1) i (0 : Fin 1)))
          (fun c => x2 (ix3 (0 : Fin 1) c q)) (fun c => x3 (ix2 (0 : Fin 1) c)) (fun c => x4 (ix2 k c)) (x5 (ix2 k (0 : Fin 1))) := by
  rw [mix_at, density_at, wsum_at]
  rfl

/-- The stored block against the result array. If the six blocks are the rows of batch `b` of the context arrays, the
    columns of tile `jt` of the grid points (coordinates down the rows, so transposed), and the whole of the
    length scales, weights and biases, then element y of the stored block is the result at batch `b`, channel
    `y 1`, grid point `1024 * jt + y 2`. -/
theorem block_value (xb0 : Vec Ideal S1x512x2 .f32) (xb1 : Vec Ideal S1x512x1 .f32) (xb2 : Vec Ideal S1x2x1024 .f32)
    (xb3 : Vec Ideal S1x2 .f32) (xb4 : Vec Ideal S64x2 .f32) (xb5 : Vec Ideal S64x1 .f32)
    (A0 : S8x512x2.Idx → EReal) (A1 : S8x512x1.Idx → EReal) (A2 : S8x4096x2.Idx → EReal) (A3 : S2.Idx → EReal)
    (A4 : S64x2.Idx → EReal) (A5 : S64.Idx → EReal) (b : Fin 8) (jt : Fin 4)
    (h0 : ∀ (i : Fin 512) (c : Fin 2), xb0 (ix3 (0 : Fin 1) i c) = A0 (ix3 b i c))
    (h1 : ∀ i : Fin 512, xb1 (ix3 (0 : Fin 1) i (0 : Fin 1)) = A1 (ix3 b i (0 : Fin 1)))
    (h2 : ∀ (c : Fin 2) (q : Fin 1024) (o : Fin 4096), o.val = jt.val * 1024 + q.val → xb2 (ix3 (0 : Fin 1) c q) = A2 (ix3 b o c))
    (h3 : ∀ c : Fin 2, xb3 (ix2 (0 : Fin 1) c) = A3 (ix1 c))
    (h4 : ∀ (k : Fin 64) (c : Fin 2), xb4 (ix2 k c) = A4 (ix2 k c))
    (h5 : ∀ k : Fin 64, xb5 (ix2 k (0 : Fin 1)) = A5 (ix1 k))
    (y : S1x64x1024.Idx) (g : S8x64x4096.Idx)
    (hg0 : (g 0).val = b.val) (hg1 : (g 1).val = (y 1).val) (hg2 : (g 2).val = jt.val * 1024 + (y 2).val) :
    k0_pay1 (k0_pay4 xb0 xb2 xb3) (k0_pay5 xb0 xb2 xb3 xb1) xb4 xb5 y = result A0 A1 A2 A3 A4 A5 g := by
  obtain ⟨u, k, q, rfl⟩ : ∃ (u : Fin 1) (k : Fin 64) (q : Fin 1024), y = ix3 u k q := ⟨y 0, y 1, y 2, eq_ix3 y⟩
  obtain rfl : u = 0 := Subsingleton.elim _ _
  obtain ⟨gb, gk, go, rfl⟩ : ∃ (gb : Fin 8) (gk : Fin 64) (go : Fin 4096), g = ix3 gb gk go := ⟨g 0, g 1, g 2, eq_ix3 g⟩
  have eb : gb = b := Fin.ext hg0
  have ek : gk = k := Fin.ext hg1
  subst eb ek
  rw [payload_at]
  have e0 : (fun (i : Fin 512) (c : Fin 2) => xb0 (ix3 (0 : Fin 1) i c)) = fun i c => A0 (ix3 gb i c) :=
    funext fun i => funext fun c => h0 i c
  have e1 : (fun i : Fin 512 => xb1 (ix3 (0 : Fin 1) i (0 : Fin 1))) = fun i => A1 (ix3 gb i (0 : Fin 1)) := funext h1
  have e2 : (fun c : Fin 2 => xb2 (ix3 (0 : Fin 1) c q)) = fun c => A2 (ix3 gb go c) := funext fun c => h2 c q go hg2
  have e3 : (fun c : Fin 2 => xb3 (ix2 (0 : Fin 1) c)) = fun c => A3 (ix1 c) := funext h3
  have e4 : (fun c : Fin 2 => xb4 (ix2 gk c)) = fun c => A4 (ix2 gk c) := funext fun c => h4 gk c
  rw [e0, e1, e2, e3, e4, h5]
  rfl

end Cert.KernelIdeal.Hand

end
-- ==== Proof.KernelBlocks.lean ====
/-
  From the body's blocks to the whole array.

  The grid is 8 batches by 4 tiles of 1024 grid points. At point t = (b, jt) the pipeline hands the body rows of
  batch b of the context arrays, columns 1024 * jt … 1024 * jt + 1023 of batch b of the transposed grid points, and
  all of the length scales, weights and bias column; the body's block goes back to batch b, all channels, the same
  1024 columns of the [8, 64, 4096] array. Each block is therefore that array's block of ONE function of the
  arguments, `Cert.RbfConv.result`, and the 32 blocks tile the array.
  The three arrays the host prepares before the region: the grid points with the last two axes swapped, the length
  scales as a row, the biases as a column.
-/
import proofs.«163372_j23776938951441_1_alg».proof.Proof.Gen.KernelIdeal.Frame
import proofs.«163372_j23776938951441_1_alg».proof.Proof.Payload
import Idealize.ShloMosaic.Lib.Pipeline.Value
import Idealize.ShloMosaic.Lib.StableHlo.Run
import Idealize.ShloMosaic.Lib.ValueLayout
import Idealize.ShloMosaic.Lib.Tactic

noncomputable section

open scoped BigOperators

open Idealize.ShloMosaic Idealize.ShloMosaic.TcCoe Idealize.SL.Sem
open Idealize.ShloMosaic.Pipeline (Dat)

namespace Cert.KernelIdeal.Hand

open Cert.KernelIdeal Cert.KernelIdeal.Gen
open Idealize.ShloMosaic.ValueIdx Cert.RbfConv Cert.ColumnForms

variable (m : (ℓ : Loc nD τ sig) → Buf (Elt Ideal) ℓ) (ρ : Dev nD → PrngReg)

/-- The result, laid out [batch, channel, grid point], of the six argument arrays as the program finds them. -/
abbrev resultOf (c : Dev nD) : S8x64x4096.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-! ## What the host prepares before the region -/

/-- The grid points with their last two axes swapped. -/
theorem V_gridT (c : Dev nD) : (V m c main_v0 : S8x2x4096.Idx → EReal)
    = transpose S8x2x4096 [0, 2, 1] (m ((c : Thread nD τ).loc main_arg2) : S8x4096x2.Idx → EReal) transposes_S8x4096x2_S8x2x4096_0_2_1 := by
  show StableHlo.after hostOps0 (fun b => m (c, b)) (Proc.devRef .tc main_v0) = _
  after_results

/-- The log length scales as a row. -/
theorem V_scaleRow (c : Dev nD) : (V m c main_v1 : S1x2.Idx → EReal)
    = shapeCast S1x2 (m ((c : Thread nD τ).loc main_arg3) : S2.Idx → EReal) shapeCasts_S2_S1x2 := by
  show StableHlo.after hostOps0 (fun b => m (c, b)) (Proc.devRef .tc main_v1) = _
  after_results
  rfl

/-- The biases as a column. -/
theorem V_biasCol (c : Dev nD) : (V m c main_v2 : S64x1.Idx → EReal)
    = shapeCast S64x1 (m ((c : Thread nD τ).loc main_arg5) : S64.Idx → EReal) shapeCasts_S64_S64x1 := by
  show StableHlo.after hostOps0 (fun b => m (c, b)) (Proc.devRef .tc main_v2) = _
  after_results
  rfl

/-! ## The index maps over the grid -/

/-- Where each window's block sits at point t, relative to the output window's batch and tile; and the ranges of these. -/
theorem idx_facts : ∀ t : Fin cfg0.N,
    win0_0.index t (0 : Fin 3) = win0_6.index t (0 : Fin 3) ∧ win0_0.index t (1 : Fin 3) = 0 ∧ win0_0.index t (2 : Fin 3) = 0
    ∧ win0_1.index t (0 : Fin 3) = win0_6.index t (0 : Fin 3) ∧ win0_1.index t (1 : Fin 3) = 0 ∧ win0_1.index t (2 : Fin 3) = 0
    ∧ win0_2.index t (0 : Fin 3) = win0_6.index t (0 : Fin 3) ∧ win0_2.index t (1 : Fin 3) = 0
      ∧ win0_2.index t (2 : Fin 3) = win0_6.index t (2 : Fin 3)
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) ≤ 7 ∧ win0_6.index t (1 : Fin 3) = 0 ∧ win0_6.index t (2 : Fin 3) ≤ 3 :=
  (by decide +kernel : ∀ t : Fin grid0.N, _)

/-- Every (batch, tile) is some point's. -/
theorem idx_onto : ∀ (q0 : Fin 8) (q2 : Fin 4), ∃ t : Fin cfg0.N, win0_6.index t = ![q0.val, 0, q2.val] :=
  (by decide +kernel : ∀ (q0 : Fin 8) (q2 : Fin 4), ∃ t : Fin grid0.N, win0_6.index t = ![q0.val, 0, q2.val])

/-! ## Each input block as rows and columns of an argument array -/

theorem blk0_apply (c : Dev nD) (t : Fin cfg0.N) (i : Fin 512) (cc : Fin 2) (b : Fin 8) (hb : b.val = win0_6.index t (0 : Fin 3)) :
    (iblk m c 0 t : Vec Ideal S1x512x2 .f32) (ix3 (0 : Fin 1) i cc)
      = (m ((c : Thread nD τ).loc main_arg0) : S8x512x2.Idx → EReal) (ix3 b i cc) := by
  obtain ⟨e00, e01, e02, e10, e11, e12, e20, e21, e22, e30, e31, e40, e41, e50, e51, r0, r1, r2⟩ := idx_facts t
  unfold iblk
  rw [View.read_apply]
  show V m c main_arg0 _ = _
  rw [V_main_arg0]
  congr 1
  funext a
  apply Fin.ext
  match a with
  | ⟨0, _⟩ => show win0_0.index t (0 : Fin 3) * 1 + 1 * 0 = b.val; omega
  | ⟨1, _⟩ => show win0_0.index t (1 : Fin 3) * 512 + 1 * i.val = i.val; omega
  | ⟨2, _⟩ => show win0_0.index t (2 : Fin 3) * 2 + 1 * cc.val = cc.val; omega

theorem blk1_apply (c : Dev nD) (t : Fin cfg0.N) (i : Fin 512) (b : Fin 8) (hb : b.val = win0_6.index t (0 : Fin 3)) :
    (iblk m c 1 t : Vec Ideal S1x512x1 .f32) (ix3 (0 : Fin 1) i (0 : Fin 1))
      = (m ((c : Thread nD τ).loc main_arg1) : S8x512x1.Idx → EReal) (ix3 b i (0 : Fin 1)) := by
  obtain ⟨e00, e01, e02, e10, e11, e12, e20, e21, e22, e30, e31, e40, e41, e50, e51, r0, r1, r2⟩ := idx_facts t
  unfold iblk
  rw [View.read_apply]
  show V m c main_arg1 _ = _
  rw [V_main_arg1]
  congr 1
  funext a
  apply Fin.ext
  match a with
  | ⟨0, _⟩ => show win0_1.index t (0 : Fin 3) * 1 + 1 * 0 = b.val; omega
  | ⟨1, _⟩ => show win0_1.index t (1 : Fin 3) * 512 + 1 * i.val = i.val; omega
  | ⟨2, _⟩ => show win0_1.index t (2 : Fin 3) * 1 + 1 * 0 = 0; omega

/-- The grid tile: coordinate cc of grid point o = 1024 * tile + q, read through the host's transpose. -/
theorem blk2_apply (c : Dev nD) (t : Fin cfg0.N) (cc : Fin 2) (q : Fin 1024) (b : Fin 8) (o : Fin 4096)
    (hb : b.val = win0_6.index t (0 : Fin 3)) (ho : o.val = win0_6.index t (2 : Fin 3) * 1024 + q.val) :
    (iblk m c 2 t : Vec Ideal S1x2x1024 .f32) (ix3 (0 : Fin 1) cc q)
      = (m ((c : Thread nD τ).loc main_arg2) : S8x4096x2.Idx → EReal) (ix3 b o cc) := by
  obtain ⟨e00, e01, e02, e10, e11, e12, e20, e21, e22, e30, e31, e40, e41, e50, e51, r0, r1, r2⟩ := idx_facts t
  unfold iblk
  rw [View.read_apply]
  show (V m c main_v0 : S8x2x4096.Idx → EReal) _ = _
  rw [V_gridT]
  refine (congrArg _ (?_ : _ = ix3 b cc o)).trans (transpose_ix3_021_apply _ _ b cc o)
  funext a
  apply Fin.ext
  match a with
  | ⟨0, _⟩ => show win0_2.index t (0 : Fin 3) * 1 + 1 * 0 = b.val; omega
  | ⟨1, _⟩ => show win0_2.index t (1 : Fin 3) * 2 + 1 * cc.val = cc.val; omega
  | ⟨2, _⟩ => show win0_2.index t (2 : Fin 3) * 1024 + 1 * q.val = o.val; omega

/-- The length-scale row, read through the host's reshape. -/
theorem blk3_apply (c : Dev nD) (t : Fin cfg0.N) (cc : Fin 2) :
    (iblk m c 3 t : Vec Ideal S1x2 .f32) (ix2 (0 : Fin 1) cc)
      = (m ((c : Thread nD τ).loc main_arg3) : S2.Idx → EReal) (ix1 cc) := by
  obtain ⟨e00, e01, e02, e10, e11, e12, e20, e21, e22, e30, e31, e40, e41, e50, e51, r0, r1, r2⟩ := idx_facts t
  unfold iblk
  rw [View.read_apply]
  show (V m c main_v1 : S1x2.Idx → EReal) _ = _
  rw [V_scaleRow]
  refine (congrArg _ (?_ : _ = ix2 (0 : Fin 1) cc)).trans (shapeCast_a_1a_apply _ _ (0 : Fin 1) cc)
  funext a
  apply Fin.ext
  match a with
  | ⟨0, _⟩ => show win0_3.index t (0 : Fin 2) * 1 + 1 * 0 = 0; omega
  | ⟨1, _⟩ => show win0_3.index t (1 : Fin 2) * 2 + 1 * cc.val = cc.val; omega

theorem blk4_apply (c : Dev nD) (t : Fin cfg0.N) (k : Fin 64) (cc : Fin 2) :
    (iblk m c 4 t : Vec Ideal S64x2 .f32) (ix2 k cc)
      = (m ((c : Thread nD τ).loc main_arg4) : S64x2.Idx → EReal) (ix2 k cc) := by
  obtain ⟨e00, e01, e02, e10, e11, e12, e20, e21, e22, e30, e31, e40, e41, e50, e51, r0, r1, r2⟩ := idx_facts t
  unfold iblk
  rw [View.read_apply]
  show V m c main_arg4 _ = _
  rw [V_main_arg4]
  congr 1
  funext a
  apply Fin.ext
  match a with
  | ⟨0, _⟩ => show win0_4.index t (0 : Fin 2) * 64 + 1 * k.val = k.val; omega
  | ⟨1, _⟩ => show win0_4.index t (1 : Fin 2) * 2 + 1 * cc.val = cc.val; omega

/-- The bias column, read through the host's reshape. -/
theorem blk5_apply (c : Dev nD) (t : Fin cfg0.N) (k : Fin 64) :
    (iblk m c 5 t : Vec Ideal S64x1 .f32) (ix2 k (0 : Fin 1))
      = (m ((c : Thread nD τ).loc main_arg5) : S64.Idx → EReal) (ix1 k) := by
  obtain ⟨e00, e01, e02, e10, e11, e12, e20, e21, e22, e30, e31, e40, e41, e50, e51, r0, r1, r2⟩ := idx_facts t
  unfold iblk
  rw [View.read_apply]
  show (V m c main_v2 : S64x1.Idx → EReal) _ = _
  rw [V_biasCol]
  refine (congrArg _ (?_ : _ = ix2 k (0 : Fin 1))).trans (shapeCast_a_a1_apply _ _ k (0 : Fin 1))
  funext a
  apply Fin.ext
  match a with
  | ⟨0, _⟩ => show win0_5.index t (0 : Fin 2) * 64 + 1 * k.val = k.val; omega
  | ⟨1, _⟩ => show win0_5.index t (1 : Fin 2) * 1 + 1 * 0 = 0; omega

/-! ## What a point writes back, the cover, the array -/

theorem hz3 : (![0, 0, 0] : Fin 3 → Nat) = fun _ => 0 := funext fun a => by fin_cases a <;> rfl
theorem hz2 : (![0, 0] : Fin 2 → Nat) = fun _ => 0 := funext fun a => by fin_cases a <;> rfl

/-- What point t writes back is block t of `result` of the arguments. -/
theorem flushed_eq (c : Dev nD) (t : Fin cfg0.N) :
    (dats m 0 c).flushed 6 t = ((cfg0.win 6).blk t).view.read (Elt Ideal) (resultOf m c) := by
  obtain ⟨e00, e01, e02, e10, e11, e12, e20, e21, e22, e30, e31, e40, e41, e50, e51, r0, r1, r2⟩ := idx_facts t
  show (cfg0.win 6).cut (grid0.coords t) ((dats m 0 c).after 6 t) = _
  rw [after0_6]
  unfold out0_6
  rw [View.canon_unit_zero hz3]
  simp only [View.ld_unit_zero (S := S1x512x2) hz3, View.ld_unit_zero (S := S1x512x1) hz3, View.ld_unit_zero (S := S1x2x1024) hz3,
    View.ld_unit_zero (S := S1x2) hz2, View.ld_unit_zero (S := S64x2) hz2, View.ld_unit_zero (S := S64x1) hz2]
  funext y
  rw [View.read_apply]
  have hy0 : (y 0).val < 1 := (y 0).isLt
  refine block_value (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    ⟨win0_6.index t (0 : Fin 3), by omega⟩ ⟨win0_6.index t (2 : Fin 3), by omega⟩
    (fun i cc => blk0_apply m c t i cc _ rfl) (fun i => blk1_apply m c t i _ rfl)
    (fun cc q o ho => blk2_apply m c t cc q _ o rfl ho) (fun cc => blk3_apply m c t cc) (fun k cc => blk4_apply m c t k cc)
    (fun k => blk5_apply m c t k) ((cfg0.win 6).xinj (grid0.coords t) y) (((cfg0.win 6).blk t).view.emb y) ?_ ?_ ?_
  · show win0_6.index t (0 : Fin 3) * 1 + 1 * (y 0).val = win0_6.index t (0 : Fin 3); omega
  · show win0_6.index t (1 : Fin 3) * 64 + 1 * (y 1).val = (y 1).val; omega
  · show win0_6.index t (2 : Fin 3) * 1024 + 1 * (y 2).val = win0_6.index t (2 : Fin 3) * 1024 + (y 2).val; omega

/-- An index of the array is in point t's block iff each coordinate is in the block's range on its axis. -/
theorem mem_blk (t : Fin cfg0.N) (i : S8x64x4096.Idx) :
    i ∈ ((cfg0.win 6).blk t).view.set ↔ ∀ a : Fin 3, win0_6.index t a * S1x64x1024.size a ≤ (i a).val
      ∧ (i a).val < win0_6.index t a * S1x64x1024.size a + S1x64x1024.size a := by
  show i ∈ ((View.whole main_v3).slice (win0_6.rect t)).set ↔ _
  rw [View.set_slice_whole, Rect.mem_set_unit]
  exact Iff.rfl

/-- Every index of the array is in the block of the point of its batch and of its grid point's tile. -/
theorem cover (i : S8x64x4096.Idx) :
    ∃ t : Fin cfg0.N, (cfg0.win 6).flush t = true ∧ i ∈ ((cfg0.win 6).blk t).view.set := by
  have hi0 : (i 0).val < 8 := (i 0).isLt
  have hi1 : (i 1).val < 64 := (i 1).isLt
  have hi2 : (i 2).val < 4096 := (i 2).isLt
  obtain ⟨t, ht⟩ := idx_onto ⟨(i 0).val, hi0⟩ ⟨(i 2).val / 1024, by omega⟩
  have q0 : win0_6.index t (0 : Fin 3) = (i 0).val := congrFun ht 0
  have q1 : win0_6.index t (1 : Fin 3) = 0 := congrFun ht 1
  have q2 : win0_6.index t (2 : Fin 3) = (i 2).val / 1024 := congrFun ht 2
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 64 ≤ (i 1).val ∧ (i 1).val < win0_6.index t (1 : Fin 3) * 64 + 64; omega
  | ⟨2, _⟩ => show win0_6.index t (2 : Fin 3) * 1024 ≤ (i 2).val ∧ (i 2).val < win0_6.index t (2 : Fin 3) * 1024 + 1024; omega

/-- The output array after the region: `result` of the arguments. -/
theorem final (c : Dev nD) : (dats m 0 c).arrAt 6 cfg0.N = resultOf m c :=
  (dats m 0 c).arrAt_eq_of_cover 6 (resultOf m c) (fun t _ => flushed_eq m c t) cover

end Cert.KernelIdeal.Hand

end
-- ==== Proof.KernelRun.lean ====
/-
  The kernel program's run, read: after the region the host reshapes the [8, 64, 4096] array to [8, 64, 64, 64];
  the program ends with that reshape of `Cert.RbfConv.result` of its arguments in its result buffer and with its six
  arguments as it found them.
-/
import proofs.«163372_j23776938951441_1_alg».proof.Proof.KernelBlocks

noncomputable section

open scoped BigOperators

open Idealize.ShloMosaic Idealize.ShloMosaic.TcCoe Idealize.SL.Sem
open Idealize.ShloMosaic.Pipeline (Dat)

namespace Cert.KernelIdeal.Hand

open Cert.KernelIdeal Cert.KernelIdeal.Gen
open Idealize.ShloMosaic.ValueIdx Cert.RbfConv

variable (m : (ℓ : Loc nD τ sig) → Buf (Elt Ideal) ℓ) (ρ : Dev nD → PrngReg)

/-- The program's result: the [batch, channel, grid point] result with the grid points laid out 64 by 64. -/
abbrev outOf (c : Dev nD) : Buf (Elt Ideal) ((c.tc : Thread nD τ).loc main_v4) :=
  shapeCast S8x64x64x64 (resultOf m c) shapeCasts_S8x64x4096_S8x64x64x64

/-- What the host line after the region leaves in the result buffer: the reshape of the region's output array. -/
theorem tail_eq (c : Dev nD) :
    Pipeline.afterTail₀ cfgs (dats m) 0 (V0 m) [hostOps1] c main_v4 = outOf m c := by
  unfold Pipeline.afterTail₀
  show StableHlo.after hostOps1 _ (Proc.devRef .tc main_v4) = _
  after_results
  rw [(Pipeline.withArrays_arr spec0 launch0.win.arr_inj c _ _ 6).trans (final m c)]
  rfl

/-- Every weakly fair execution of the program ends, with the result buffer at `outOf` and the arguments unchanged. -/
theorem run : θ_run defs (onTc (τ := τ) (main (F := Ideal))) ⟨m, fun _ => 0, ρ⟩ (fun r => ∀ c : Dev nD,
      r.2.mem ((c.tc : Thread nD τ).loc main_v4) = outOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v4 (Pipeline.mem_restRefs_of main_v4 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩)
    (run_main m ρ)

end Cert.KernelIdeal.Hand

end
-- ==== Proof.lean ====
/-
  The kernel computes, for 8 batches of 512 context points in the plane with one value each, on a 64 x 64 grid of
  4096 points, and for 64 output channels,

    out[b, k, o] = logistic (W[k, 0] * density + W[k, 1] * (wsum / (density + eps)) + bias[k]),
    density = sum_i exp ((-1/2 * |g_o - p_i|) / (e^s0 * e^s0)),   wsum = sum_i y_i * exp ((-1/2 * |g_o - p_i|) / (e^s1 * e^s1)),

  one grid point of the pipeline per (batch, tile of 1024 grid points); the reference computes the same with a
  four-axis weight array, a channel of ones prepended to the values, one sum over the context points for both
  channels, an einsum over the two channels and 1 / (1 + exp (-x)) spelt out.

  Over the extended reals the two are one function (`Cert.RbfConv.result`, Proof/Spec.lean): the reference is it
  (Proof/RefIsSpec.lean: the ones times a weight are the weight, the sums start from zero, the two-term sum's
  products commute, the spelt-out quotient is the logistic function), every block the kernel writes back is its
  block of it (Proof/Payload.lean, Proof/KernelBlocks.lean), the blocks tile the array, and both programs end with the
  same reshape (Proof/KernelRun.lean). No law used needs the inputs finite, so the precondition is never opened.
  The three frames are the generated frame runs; nothing was rewritten by the idealization, so `preserves` is trivial.
-/
import proofs.«163372_j23776938951441_1_alg».proof.Defs
import proofs.«163372_j23776938951441_1_alg».proof.Proof.Gen.Kernel
import proofs.«163372_j23776938951441_1_alg».proof.Proof.Gen.Kernel.Skeleton
import proofs.«163372_j23776938951441_1_alg».proof.Proof.Gen.Kernel.Launch
import proofs.«163372_j23776938951441_1_alg».proof.Proof.Gen.Kernel.Points
import proofs.«163372_j23776938951441_1_alg».proof.Proof.Gen.Kernel.Frame
import proofs.«163372_j23776938951441_1_alg».proof.Proof.Gen.KernelIdeal
import proofs.«163372_j23776938951441_1_alg».proof.Proof.Gen.KernelIdeal.Skeleton
import proofs.«163372_j23776938951441_1_alg».proof.Proof.Gen.KernelIdeal.Launch
import proofs.«163372_j23776938951441_1_alg».proof.Proof.Gen.KernelIdeal.Points
import proofs.«163372_j23776938951441_1_alg».proof.Proof.Gen.KernelIdeal.Frame
import proofs.«163372_j23776938951441_1_alg».proof.Proof.Gen.ReferenceIdeal
import proofs.«163372_j23776938951441_1_alg».proof.Proof.Gen.Pre_finite_inputs
import proofs.«163372_j23776938951441_1_alg».proof.Proof.Gen.ReferenceIdeal.Run
import proofs.«163372_j23776938951441_1_alg».proof.Proof.Gen.ReferenceIdeal.Read
import proofs.«163372_j23776938951441_1_alg».proof.Proof.RefIsSpec
import proofs.«163372_j23776938951441_1_alg».proof.Proof.KernelRun
import Idealize.ShloMosaic.Adequacy
import Idealize.ShloMosaic.Init

noncomputable section

namespace Cert.Proof

open Idealize.ShloMosaic Idealize.SL.Sem

/-- The word-level kernel runs and leaves its arguments as they were: the generated frame run. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is host operations only: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the reshape to [8, 64, 64, 64] of
    `Cert.RbfConv.result` of the arguments: the kernel by its run read block by block, the reference by its run read
    operation by operation. -/
theorem algebraic : Cert.algebraic_KernelIdeal_ReferenceIdeal := by
  intro m ρ m' ρ' _ hagree
  refine ⟨fun c => Cert.KernelIdeal.Hand.outOf m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq]
  obtain ⟨a0, a1, a2, a3, a4, a5⟩ := hagree c
  rw [a0, a1, a2, a3, a4, a5]
  unfold Cert.ReferenceIdeal.Read.val_main_v39
  rw [Cert.ReferenceIdeal.RefValue.ref_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
